-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x1025x512 : Shape := ⟨4, ![8, 32, 1025, 512]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S8x32x1025x512 : S_.BroadcastsInDim S8x32x1025x512 (![] : Fin 0 → Fin S8x32x1025x512.rank)
  reducesTo_S8x32x1025x512_S_d0_1_2_3 : S8x32x1025x512.ReducesTo [0, 1, 2, 3] S_
  h_S_ : 0 < S_.numel
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8x32x1025x512 .f32) (main_arg1 : FVec F S1024 .f32) (main_arg2 : FVec F S1024 .f32) (main_arg3 : FVec F S1024x512 .f32) (main_arg4 : FVec F S512 .f32) : IVec S_ 1 :=
  let main_v0 : FVec F S8x32x1025x512 .f32 := Host.absf main_arg0
  let main_cst : FVec F S_ .f32 := constant S_ .f32 0x7F800000#32
  let main_v1 : FVec F S8x32x1025x512 .f32 := broadcastInDim S8x32x1025x512 ![] bcast_S_S8x32x1025x512 main_cst
  let main_v2 : IVec S8x32x1025x512 1 := cmpf .olt main_v0 main_v1
  let main_c : IVec S_ 1 := constantI S_ 1 1#1
  let main_v3 : IVec S_ 1 := (fun x v => Host.reduce IntOp.andi x v reducesTo_S8x32x1025x512_S_d0_1_2_3 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_v13 main_v16
-- ==== Kernel.lean ====
abbrev S8x32x1025x512 : Shape := ⟨4, ![8, 32, 1025, 512]⟩
abbrev S1024 : Shape := ⟨1, ![1024]⟩
abbrev S1024x512 : Shape := ⟨2, ![1024, 512]⟩
abbrev S512 : Shape := ⟨1, ![512]⟩
abbrev S8x32x1x512 : Shape := ⟨4, ![8, 32, 1, 512]⟩
abbrev S8x32x512 : Shape := ⟨3, ![8, 32, 512]⟩
abbrev S8x32x1024 : Shape := ⟨3, ![8, 32, 1024]⟩
abbrev S8x32x1x1024 : Shape := ⟨4, ![8, 32, 1, 1024]⟩
abbrev S8x32x1024x512 : Shape := ⟨4, ![8, 32, 1024, 512]⟩
abbrev S8x32x512x1024 : Shape := ⟨4, ![8, 32, 512, 1024]⟩
abbrev S8x32x513x1024 : Shape := ⟨4, ![8, 32, 513, 1024]⟩
abbrev S131328x1024 : Shape := ⟨2, ![131328, 1024]⟩
abbrev S131328x512 : Shape := ⟨2, ![131328, 512]⟩
abbrev S3456x1024 : Shape := ⟨2, ![3456, 1024]⟩
abbrev S3456x512 : Shape := ⟨2, ![3456, 512]⟩
abbrev S3456 : Shape := ⟨1, ![3456]⟩
abbrev S3456x1 : Shape := ⟨2, ![3456, 1]⟩
abbrev S1x1024 : Shape := ⟨2, ![1, 1024]⟩
abbrev S1x512 : Shape := ⟨2, ![1, 512]⟩
abbrev S8x32x513x512 : Shape := ⟨4, ![8, 32, 513, 512]⟩

abbrev nBuf : Space → Nat
  | .hbm => 16
  | .vmem => 8
  | .smem => 0
  | _ => 0

abbrev bufTy : (tb : Table) → Fin (tcTables nBuf tb) → BufTy
  | .hbm, ⟨0, _⟩ => ⟨S8x32x1025x512, .f32⟩
  | .hbm, ⟨1, _⟩ => ⟨S1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S8x32x1x512, .f32⟩
  | .hbm, ⟨6, _⟩ => ⟨S8x32x512, .f32⟩
  | .hbm, ⟨7, _⟩ => ⟨S8x32x1024, .f32⟩
  | .hbm, ⟨8, _⟩ => ⟨S8x32x1x1024, .f32⟩
  | .hbm, ⟨9, _⟩ => ⟨S8x32x1024x512, .f32⟩
  | .hbm, ⟨10, _⟩ => ⟨S8x32x512x1024, .f32⟩
  | .hbm, ⟨11, _⟩ => ⟨S8x32x513x1024, .f32⟩
  | .hbm, ⟨12, _⟩ => ⟨S131328x1024, .f32⟩
  | .hbm, ⟨13, _⟩ => ⟨S1024x512, .bf16⟩
  | .hbm, ⟨14, _⟩ => ⟨S131328x512, .f32⟩
  | .hbm, ⟨15, _⟩ => ⟨S8x32x513x512, .f32⟩
  | .local _ .vmem, ⟨0, _⟩ => ⟨S3456x1024, .f32⟩
  | .local _ .vmem, ⟨1, _⟩ => ⟨S3456x1024, .f32⟩
  | .local _ .vmem, ⟨2, _⟩ => ⟨S1024, .f32⟩
  | .local _ .vmem, ⟨3, _⟩ => ⟨S1024, .f32⟩
  | .local _ .vmem, ⟨4, _⟩ => ⟨S1024x512, .bf16⟩
  | .local _ .vmem, ⟨5, _⟩ => ⟨S512, .f32⟩
  | .local _ .vmem, ⟨6, _⟩ => ⟨S3456x512, .f32⟩
  | .local _ .vmem, ⟨7, _⟩ => ⟨S3456x512, .f32⟩
  | _, _ => ⟨S8x32x1025x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![38], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3456x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3456x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S8x32x1025x512_S8x32x1x512_0_0_0_0 : S8x32x1025x512.Slices ![0, 0, 0, 0] S8x32x1x512
  shapeCasts_S8x32x1x512_S8x32x512 : S8x32x1x512.ShapeCasts S8x32x512
  concatenates_S8x32x512_S8x32x512_S8x32x1024_d2 : Shape.Concatenates [S8x32x512, S8x32x512] S8x32x1024 2
  bcast_S8x32x1024_S8x32x1x1024_0_1_3 : S8x32x1024.BroadcastsInDim S8x32x1x1024 (![0, 1, 3] : Fin 3 → Fin S8x32x1x1024.rank)
  slices_S8x32x1025x512_S8x32x1024x512_0_0_1_0 : S8x32x1025x512.Slices ![0, 0, 1, 0] S8x32x1024x512
  shapeCasts_S8x32x1024x512_S8x32x512x1024 : S8x32x1024x512.ShapeCasts S8x32x512x1024
  concatenates_S8x32x1x1024_S8x32x512x1024_S8x32x513x1024_d2 : Shape.Concatenates [S8x32x1x1024, S8x32x512x1024] S8x32x513x1024 2
  shapeCasts_S8x32x513x1024_S131328x1024 : S8x32x513x1024.ShapeCasts S131328x1024
  bitsLt_bf16_f32 : FTy.bits .bf16 < FTy.bits .f32
  inb_S3456x1024_S3456x1024_0_0 : ∀ a, (![0, 0] : Fin 2 → Nat) a + S3456x1024.size a ≤ S3456x1024.size a
  h_S3456x1024 : 0 < S3456x1024.numel
  shapeCasts_S3456x1024_S3456x1024 : S3456x1024.ShapeCasts S3456x1024
  reduces_S3456x1024_S3456 : S3456x1024.Reduces [1] S3456
  shapeCasts_S3456_S3456x1 : S3456.ShapeCasts S3456x1
  broadcasts_S3456x1_S3456x1024 : S3456x1.Broadcasts S3456x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S3456x1024 : S1x1024.Broadcasts S3456x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S3456x512 : S1x512.Broadcasts S3456x512
  inb_S3456x512_S3456x512_0_0 : ∀ a, (![0, 0] : Fin 2 → Nat) a + S3456x512.size a ≤ S3456x512.size a
  h_S3456x512 : 0 < S3456x512.numel
  shapeCasts_S131328x512_S8x32x513x512 : S131328x512.ShapeCasts S8x32x513x512
  dot_S3456x1024_S1024x512_S3456x512_1_0_0_1_n_n_wf : DotDims.WF S3456x1024 S1024x512 S3456x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3456x1024.size a ≤ S131328x1024.size a
  hwx0_0 : ∀ i : grid0.Coords, EltTy.bits .f32 = 32 ∨ (Rect.block (s := S131328x1024) S3456x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3456x512.size a ≤ S131328x512.size a
  hwx0_5 : ∀ i : grid0.Coords, EltTy.bits .f32 = 32 ∨ (Rect.block (s := S131328x512) S3456x512.size (cc0_transform_5 i) (hinb0_5 i)).WholeWords (EltTy.packing .f32)

variable [Facts₀]

def dot_S3456x1024_S1024x512_S3456x512_1_0_0_1_n_n : DotDims S3456x1024 S1024x512 S3456x512 where
  lhsContracting := [1]
  rhsContracting := [0]
  lhsNonContracting := [0]
  rhsNonContracting := [1]
  lhsBatch := []
  rhsBatch := []
  wf := dot_S3456x1024_S1024x512_S3456x512_1_0_0_1_n_n_wf

abbrev win0_0 : Pipeline.Window sig grid0 :=
  Pipeline.Window.ofSpec (Memref.whole main_v7) S3456x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S3456x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x32x1025x512 : Shape := ⟨4, ![8, 32, 1025, 512]⟩
abbrev S1024 : Shape := ⟨1, ![1024]⟩
abbrev S1024x512 : Shape := ⟨2, ![1024, 512]⟩
abbrev S512 : Shape := ⟨1, ![512]⟩
abbrev S8x32x1x512 : Shape := ⟨4, ![8, 32, 1, 512]⟩
abbrev S8x32x512 : Shape := ⟨3, ![8, 32, 512]⟩
abbrev S8x32x1024 : Shape := ⟨3, ![8, 32, 1024]⟩
abbrev S8x32x1x1024 : Shape := ⟨4, ![8, 32, 1, 1024]⟩
abbrev S8x32x1024x512 : Shape := ⟨4, ![8, 32, 1024, 512]⟩
abbrev S8x32x512x1024 : Shape := ⟨4, ![8, 32, 512, 1024]⟩
abbrev S8x32x513x1024 : Shape := ⟨4, ![8, 32, 513, 1024]⟩
abbrev S_ : Shape := ⟨0, ![]⟩
abbrev S8x32x513 : Shape := ⟨3, ![8, 32, 513]⟩
abbrev S8x32x513x1 : Shape := ⟨4, ![8, 32, 513, 1]⟩
abbrev S1x1x1x1024 : Shape := ⟨4, ![1, 1, 1, 1024]⟩
abbrev S8x32x513x512 : Shape := ⟨4, ![8, 32, 513, 512]⟩
abbrev S1x1x1x512 : Shape := ⟨4, ![1, 1, 1, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x32x1025x512, .f32⟩
  | .hbm, ⟨1, _⟩ => ⟨S1024, .f32⟩
  | .hbm, ⟨2, _⟩ => ⟨S1024, .f32⟩
  | .hbm, ⟨3, _⟩ => ⟨S1024x512, .f32⟩
  | .hbm, ⟨4, _⟩ => ⟨S512, .f32⟩
  | .hbm, ⟨5, _⟩ => ⟨S8x32x1x512, .f32⟩
  | .hbm, ⟨6, _⟩ => ⟨S8x32x512, .f32⟩
  | .hbm, ⟨7, _⟩ => ⟨S8x32x1024, .f32⟩
  | .hbm, ⟨8, _⟩ => ⟨S8x32x1x1024, .f32⟩
  | .hbm, ⟨9, _⟩ => ⟨S8x32x1024x512, .f32⟩
  | .hbm, ⟨10, _⟩ => ⟨S8x32x512x1024, .f32⟩
  | .hbm, ⟨11, _⟩ => ⟨S8x32x513x1024, .f32⟩
  | .hbm, ⟨12, _⟩ => ⟨S_, .f32⟩
  | .hbm, ⟨13, _⟩ => ⟨S8x32x513, .f32⟩
  | .hbm, ⟨14, _⟩ => ⟨S8x32x513x1, .f32⟩
  | .hbm, ⟨15, _⟩ => ⟨S_, .f32⟩
  | .hbm, ⟨16, _⟩ => ⟨S8x32x513x1, .f32⟩
  | .hbm, ⟨17, _⟩ => ⟨S8x32x513x1, .f32⟩
  | .hbm, ⟨18, _⟩ => ⟨S8x32x513x1024, .f32⟩
  | .hbm, ⟨19, _⟩ => ⟨S8x32x513x1024, .f32⟩
  | .hbm, ⟨20, _⟩ => ⟨S8x32x513x1024, .f32⟩
  | .hbm, ⟨21, _⟩ => ⟨S_, .f32⟩
  | .hbm, ⟨22, _⟩ => ⟨S8x32x513, .f32⟩
  | .hbm, ⟨23, _⟩ => ⟨S8x32x513x1, .f32⟩
  | .hbm, ⟨24, _⟩ => ⟨S_, .f32⟩
  | .hbm, ⟨25, _⟩ => ⟨S8x32x513x1, .f32⟩
  | .hbm, ⟨26, _⟩ => ⟨S8x32x513x1, .f32⟩
  | .hbm, ⟨27, _⟩ => ⟨S8x32x513x1024, .f32⟩
  | .hbm, ⟨28, _⟩ => ⟨S8x32x513x1024, .f32⟩
  | .hbm, ⟨29, _⟩ => ⟨S_, .f32⟩
  | .hbm, ⟨30, _⟩ => ⟨S8x32x513x1, .f32⟩
  | .hbm, ⟨31, _⟩ => ⟨S8x32x513x1, .f32⟩
  | .hbm, ⟨32, _⟩ => ⟨S8x32x513x1, .f32⟩
  | .hbm, ⟨33, _⟩ => ⟨S8x32x513x1024, .f32⟩
  | .hbm, ⟨34, _⟩ => ⟨S8x32x513x1024, .f32⟩
  | .hbm, ⟨35, _⟩ => ⟨S1x1x1x1024, .f32⟩
  | .hbm, ⟨36, _⟩ => ⟨S8x32x513x1024, .f32⟩
  | .hbm, ⟨37, _⟩ => ⟨S8x32x513x1024, .f32⟩
  | .hbm, ⟨38, _⟩ => ⟨S1x1x1x1024, .f32⟩
  | .hbm, ⟨39, _⟩ => ⟨S8x32x513x1024, .f32⟩
  | .hbm, ⟨40, _⟩ => ⟨S8x32x513x1024, .f32⟩
  | .hbm, ⟨41, _⟩ => ⟨S8x32x513x512, .f32⟩
  | .hbm, ⟨42, _⟩ => ⟨S1x1x1x512, .f32⟩
  | .hbm, ⟨43, _⟩ => ⟨S8x32x513x512, .f32⟩
  | .hbm, ⟨44, _⟩ => ⟨S8x32x513x512, .f32⟩
  | _, _ => ⟨S8x32x1025x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  slices_S8x32x1025x512_S8x32x1x512_0_0_0_0 : S8x32x1025x512.Slices ![0, 0, 0, 0] S8x32x1x512
  shapeCasts_S8x32x1x512_S8x32x512 : S8x32x1x512.ShapeCasts S8x32x512
  concatenates_S8x32x512_S8x32x512_S8x32x1024_d2 : Shape.Concatenates [S8x32x512, S8x32x512] S8x32x1024 2
  bcast_S8x32x1024_S8x32x1x1024_0_1_3 : S8x32x1024.BroadcastsInDim S8x32x1x1024 (![0, 1, 3] : Fin 3 → Fin S8x32x1x1024.rank)
  slices_S8x32x1025x512_S8x32x1024x512_0_0_1_0 : S8x32x1025x512.Slices ![0, 0, 1, 0] S8x32x1024x512
  shapeCasts_S8x32x1024x512_S8x32x512x1024 : S8x32x1024x512.ShapeCasts S8x32x512x1024
  concatenates_S8x32x1x1024_S8x32x512x1024_S8x32x513x1024_d2 : Shape.Concatenates [S8x32x1x1024, S8x32x512x1024] S8x32x513x1024 2
  reducesTo_S8x32x513x1024_S8x32x513_d3 : S8x32x513x1024.ReducesTo [3] S8x32x513
  h_S_ : 0 < S_.numel
  bcast_S8x32x513_S8x32x513x1_0_1_2 : S8x32x513.BroadcastsInDim S8x32x513x1 (![0, 1, 2] : Fin 3 → Fin S8x32x513x1.rank)
  bcast_S_S8x32x513x1 : S_.BroadcastsInDim S8x32x513x1 (![] : Fin 0 → Fin S8x32x513x1.rank)
  bcast_S8x32x513x1_S8x32x513x1024_0_1_2_3 : S8x32x513x1.BroadcastsInDim S8x32x513x1024 (![0, 1, 2, 3] : Fin 4 → Fin S8x32x513x1024.rank)
  bcast_S1024_S1x1x1x1024_3 : S1024.BroadcastsInDim S1x1x1x1024 (![3] : Fin 1 → Fin S1x1x1x1024.rank)
  bcast_S1x1x1x1024_S8x32x513x1024_0_1_2_3 : S1x1x1x1024.BroadcastsInDim S8x32x513x1024 (![0, 1, 2, 3] : Fin 4 → Fin S8x32x513x1024.rank)
  bcast_S512_S1x1x1x512_3 : S512.BroadcastsInDim S1x1x1x512 (![3] : Fin 1 → Fin S1x1x1x512.rank)
  bcast_S1x1x1x512_S8x32x513x512_0_1_2_3 : S1x1x1x512.BroadcastsInDim S8x32x513x512 (![0, 1, 2, 3] : Fin 4 → Fin S8x32x513x512.rank)
  dot_S8x32x513x1024_S1024x512_S8x32x513x512_3_0_012_1_n_n_wf : DotDims.WF S8x32x513x1024 S1024x512 S8x32x513x512 [3] [0] [0, 1, 2] [1] [] []

variable [Facts₀]

def dot_S8x32x513x1024_S1024x512_S8x32x513x512_3_0_012_1_n_n : DotDims S8x32x513x1024 S1024x512 S8x32x513x512 where
  lhsContracting := [3]
  rhsContracting := [0]
  lhsNonContracting := [0, 1, 2]
  rhsNonContracting := [1]
  lhsBatch := []
  rhsBatch := []
  wf := dot_S8x32x513x1024_S1024x512_S8x32x513x512_3_0_012_1_n_n_wf

class Facts : Prop extends Facts₀ where

variable [Facts]
-- ==== Proof.RowNorm.lean ====
/-
  One row through layer normalisation and a linear layer, on the extended reals.

  For a row `v` of `K` entries the mean is `μ = (z + Σ_k v_k) / n`, the deviations are `d_k = v_k - μ`, the variance is
  `σ² = (z + Σ_k d_k · d_k) / n`, the normalised row is `(d_k · rsqrt (σ² + ε)) · w_k + b_k`, and the layer's output `q` is
  `Σ_k normed_k · W[k, q] + c_q`.  Here `z`, `n` and `ε` are the values of three fixed f32 words (zero, the row length
  1024, and 1e-5 rounded to f32); they are never evaluated, since both programs compared against this function carry
  the same words.  Division and the reciprocal square root are the total operations of the ideal floats
  (`Ideal.div`, `Ideal.rsqrt`), so the function is defined on every extended real and no finiteness is assumed.

  `rowsOut` applies the row function to every row of an `[R, K]` array, giving an `[R, N]` array; it is what both
  programs compute once their arrays are laid out as rows.  The last lemma reads a lane sum of an `[n, w]` vector at a
  row as the plain sum of that row.
-/
import Idealize.ShloMosaic.PureOps.Ideal.Laws
import Idealize.ShloMosaic.Lib.ValueIdx

noncomputable section

open scoped BigOperators

namespace Cert.LnLinear

open Idealize.ShloMosaic Idealize.ShloMosaic.ValueIdx

/-- The three f32 words both programs carry: zero (the sums' starting value), the row length, and epsilon. -/
abbrev zeroW : EReal := Ideal.ofBits .f32 0x00000000#32
abbrev lenW : EReal := Ideal.ofBits .f32 0x44800000#32
abbrev epsW : EReal := Ideal.ofBits .f32 0x3727C5AC#32

/-- The zero word is the extended real zero: a sum started from it is the sum. -/
theorem zeroW_add (x : EReal) : zeroW + x = x := by
  show Ideal.ofBits .f32 0x00000000#32 + x = x
  rw [Ideal.ofBits_zero_f32, zero_add]

variable {K N : Nat}

/-- The mean of a row: its sum (from the zero word) over the row length. -/
def mean (v : Fin K → EReal) : EReal := Ideal.div (zeroW + ∑ k, v k) lenW

/-- A row's deviations from its mean. -/
def dev (v : Fin K → EReal) (k : Fin K) : EReal := v k - mean v

/-- The variance of a row: the mean of its squared deviations. -/
def var (v : Fin K → EReal) : EReal := Ideal.div (zeroW + ∑ k, dev v k * dev v k) lenW

/-- The reciprocal standard deviation, with epsilon under the root. -/
def invStd (v : Fin K → EReal) : EReal := Ideal.rsqrt (var v + epsW)

/-- The normalised row, scaled and shifted entry by entry. -/
def normed (v w b : Fin K → EReal) (k : Fin K) : EReal := dev v k * invStd v * w k + b k

/-- The row through the layer: output `q` is the normalised row against column `q` of the weight, plus the bias. -/
def rowOut (v w b : Fin K → EReal) (W : Fin K → Fin N → EReal) (c : Fin N → EReal) (q : Fin N) : EReal :=
  (∑ k, normed v w b k * W k q) + c q

/-- Every row of an `[R, K]` array through the layer: an `[R, N]` array. -/
def rowsOut {R : Nat} (A : (⟨2, ![R, K]⟩ : Shape).Idx → EReal) (w b : (⟨1, ![K]⟩ : Shape).Idx → EReal)
    (W : (⟨2, ![K, N]⟩ : Shape).Idx → EReal) (c : (⟨1, ![N]⟩ : Shape).Idx → EReal) : (⟨2, ![R, N]⟩ : Shape).Idx → EReal :=
  fun i => rowOut (fun k => A (ix2 (i 0) k)) (fun k => w (ix1 k)) (fun k => b (ix1 k)) (fun k q => W (ix2 k q))
    (fun q => c (ix1 q)) (i 1)

theorem rowsOut_apply {R : Nat} (A : (⟨2, ![R, K]⟩ : Shape).Idx → EReal) (w b : (⟨1, ![K]⟩ : Shape).Idx → EReal)
    (W : (⟨2, ![K, N]⟩ : Shape).Idx → EReal) (c : (⟨1, ![N]⟩ : Shape).Idx → EReal) (p : Fin R) (q : Fin N) :
    rowsOut A w b W c (ix2 p q) = rowOut (fun k => A (ix2 p k)) (fun k => w (ix1 k)) (fun k => b (ix1 k))
      (fun k q => W (ix2 k q)) (fun q => c (ix1 q)) q := rfl

/-- The row function depends on the row only through its entries. -/
theorem rowOut_congr {v v' : Fin K → EReal} (h : ∀ k, v k = v' k) (w b : Fin K → EReal) (W : Fin K → Fin N → EReal)
    (c : Fin N → EReal) (q : Fin N) : rowOut v w b W c q = rowOut v' w b W c q := by
  rw [show v = v' from funext h]

/-- A lane sum along the last axis of an `[n, w]` vector of ideal floats, read at row `r`: the plain sum of the row. -/
theorem laneSum_row {n w : Nat} (src : FVec Ideal ⟨2, ![n, w]⟩ .f32) (h : (⟨2, ![n, w]⟩ : Shape).Reduces [1] ⟨1, ![n]⟩)
    (hφ : FKind.Formats .f32) (hacc : (0x00000000#32 : BitVec 32) = FKind.add.neutral .f32 hφ) (r : Fin n) :
    multiReduction .add [1] ⟨1, ![n]⟩ src 0x00000000#32 h hφ hacc (ix1 r) = ∑ k : Fin w, src (ix2 r k) :=
  (Ideal.multiReduction_add_single src 0x00000000#32 h hφ hacc (ix1 r)).trans
    (Finset.sum_congr rfl fun k _ => congrArg src (funext fun a => Fin.ext (by
      match a with
      | ⟨0, _⟩ => rfl
      | ⟨1, _⟩ => rfl)))

end Cert.LnLinear

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelRow.lean ====
/-
  The kernel body's arithmetic, read entry by entry.

  The body receives a block of 3456 rows of 1024 entries, the two normalisation vectors, the weight (already rounded
  to bf16, which is the identity on the ideal floats) and the bias.  It forms the column of row means (lane sums kept
  as a column, over the row length), the deviations, the column of variances the same way from the squared deviations,
  the column of reciprocal standard deviations, the scaled and shifted block, its product with the weight into a zero
  accumulator, and adds the bias row.  Each step below is that step as the body spells it, followed by what it holds at
  `(p, k)`; together they say the stored block is `rowsOut` of the loaded blocks: row `p` of the result is the row
  function of row `p` of the block.
-/
import proofs.«169697_j80401787781844_1_alg».proof.Proof.Gen.KernelIdeal.Skeleton
import proofs.«169697_j80401787781844_1_alg».proof.Proof.RowNorm
import proofs.«169697_j80401787781844_1_alg».proof.Proof.LibColumns
import proofs.«169697_j80401787781844_1_alg».proof.Proof.LibDotCols
import Idealize.ShloMosaic.Lib.ValueLayout
import Idealize.ShloMosaic.Lib.Pipeline.Value

noncomputable section

open scoped BigOperators

namespace Cert.LnLinear.Body

open Cert.KernelIdeal Cert.KernelIdeal.Facts₀ Cert.LnLinear
open Cert.KernelIdeal.Gen (k0_pay1)
open Idealize.ShloMosaic Idealize.ShloMosaic.ValueIdx

/-- Row `p` of a block. -/
abbrev rowOf (x : FVec Ideal S3456x1024 .f32) (p : Fin 3456) : Fin 1024 → EReal := fun k => x (ix2 p k)

/-- The column of row means: the lane sums of the block, kept as a column, over the row length. -/
def meanCol (x : FVec Ideal S3456x1024 .f32) : FVec Ideal S3456x1 .f32 :=
  divf (shapeCast S3456x1 (multiReduction .add [1] S3456 x 0x00000000#32 reduces_S3456x1024_S3456 (.inl rfl) rfl)
    shapeCasts_S3456_S3456x1) (broadcast S3456x1 (Scalar.ofBits .f32 0x44800000#32))

theorem meanCol_apply (x : FVec Ideal S3456x1024 .f32) (p : Fin 3456) (u : Fin 1) :
    meanCol x (ix2 p u) = mean (rowOf x p) := by
  show Ideal.div (shapeCast S3456x1 (multiReduction .add [1] S3456 x 0x00000000#32 reduces_S3456x1024_S3456 (.inl rfl) rfl)
    shapeCasts_S3456_S3456x1 (ix2 p u)) lenW = Ideal.div (zeroW + ∑ k, x (ix2 p k)) lenW
  refine congrArg (fun s => Ideal.div s lenW) ?_
  exact ((shapeCast_a_a1_apply _ shapeCasts_S3456_S3456x1 p u).trans
    (laneSum_row x reduces_S3456x1024_S3456 (.inl rfl) rfl p)).trans (zeroW_add _).symm

/-- The deviations: each entry less its row's mean, the column of means spread over the row. -/
def devs (x : FVec Ideal S3456x1024 .f32) : FVec Ideal S3456x1024 .f32 :=
  subf x (broadcastTo S3456x1024 (meanCol x) broadcasts_S3456x1_S3456x1024)

theorem devs_apply (x : FVec Ideal S3456x1024 .f32) (p : Fin 3456) (k : Fin 1024) :
    devs x (ix2 p k) = dev (rowOf x p) k := by
  show x (ix2 p k) - broadcastTo S3456x1024 (meanCol x) broadcasts_S3456x1_S3456x1024 (ix2 p k) = x (ix2 p k) - mean (rowOf x p)
  exact congrArg (x (ix2 p k) - ·) ((broadcastTo_a1_ab_apply _ broadcasts_S3456x1_S3456x1024 p k).trans (meanCol_apply x p 0))

/-- The column of reciprocal standard deviations: the means of the squared deviations, epsilon added, under `rsqrt`. -/
def invCol (x : FVec Ideal S3456x1024 .f32) : FVec Ideal S3456x1 .f32 :=
  rsqrt (addf (meanCol (mulf (devs x) (devs x))) (broadcast S3456x1 (Scalar.ofBits .f32 0x3727C5AC#32)))

theorem invCol_apply (x : FVec Ideal S3456x1024 .f32) (p : Fin 3456) (u : Fin 1) :
    invCol x (ix2 p u) = invStd (rowOf x p) := by
  show Ideal.rsqrt (meanCol (mulf (devs x) (devs x)) (ix2 p u) + epsW) = Ideal.rsqrt (var (rowOf x p) + epsW)
  refine congrArg (fun s => Ideal.rsqrt (s + epsW)) ?_
  rw [meanCol_apply]
  show Ideal.div (zeroW + ∑ k, devs x (ix2 p k) * devs x (ix2 p k)) lenW = Ideal.div (zeroW + ∑ k, dev (rowOf x p) k * dev (rowOf x p) k) lenW
  exact congrArg (fun s => Ideal.div (zeroW + s) lenW) (Finset.sum_congr rfl fun k _ => by rw [devs_apply])

/-- The normalised block: deviations times the spread column of reciprocal deviations, times the scale row, plus the
    shift row (both vectors laid as one row and spread over the rows). -/
def normedBlk (x : FVec Ideal S3456x1024 .f32) (w b : FVec Ideal S1024 .f32) : FVec Ideal S3456x1024 .f32 :=
  addf (mulf (mulf (devs x) (broadcastTo S3456x1024 (invCol x) broadcasts_S3456x1_S3456x1024))
      (broadcastTo S3456x1024 (shapeCast S1x1024 w shapeCasts_S1024_S1x1024) broadcasts_S1x1024_S3456x1024))
    (broadcastTo S3456x1024 (shapeCast S1x1024 b shapeCasts_S1024_S1x1024) broadcasts_S1x1024_S3456x1024)

theorem normedBlk_apply (x : FVec Ideal S3456x1024 .f32) (w b : FVec Ideal S1024 .f32) (p : Fin 3456) (k : Fin 1024) :
    normedBlk x w b (ix2 p k) = normed (rowOf x p) (fun k => w (ix1 k)) (fun k => b (ix1 k)) k := by
  show devs x (ix2 p k) * broadcastTo S3456x1024 (invCol x) broadcasts_S3456x1_S3456x1024 (ix2 p k)
        * broadcastTo S3456x1024 (shapeCast S1x1024 w shapeCasts_S1024_S1x1024) broadcasts_S1x1024_S3456x1024 (ix2 p k)
      + broadcastTo S3456x1024 (shapeCast S1x1024 b shapeCasts_S1024_S1x1024) broadcasts_S1x1024_S3456x1024 (ix2 p k)
    = dev (rowOf x p) k * invStd (rowOf x p) * w (ix1 k) + b (ix1 k)
  rw [devs_apply, broadcastTo_a1_ab_apply, invCol_apply, broadcastTo_1b_ab_apply, broadcastTo_1b_ab_apply,
    shapeCast_a_1a_apply, shapeCast_a_1a_apply]

/-- The body's stored value is these steps composed: the product of the normalised block (rounded, which changes
    nothing here) with the weight into the zero accumulator, plus the bias row spread over the rows. -/
theorem pay_eq (x0 : FVec Ideal S3456x1024 .f32) (x1 x2 : FVec Ideal S1024 .f32) (x3 : FVec Ideal S1024x512 .bf16)
    (x4 : FVec Ideal S512 .f32) :
    k0_pay1 (F := Ideal) x0 x1 x2 x3 x4
      = addf (matmul dot_S3456x1024_S1024x512_S3456x512_1_0_0_1_n_n none
          (truncf .bf16 (normedBlk (shapeCast S3456x1024 x0 shapeCasts_S3456x1024_S3456x1024) x1 x2) bitsLt_bf16_f32)
          (shapeCast S1024x512 x3 shapeCasts_S1024x512_S1024x512) (constant S3456x512 .f32 0x00000000#32))
        (broadcastTo S3456x512 (shapeCast S1x512 x4 shapeCasts_S512_S1x512) broadcasts_S1x512_S3456x512) := rfl

/-- THE STORED BLOCK: every row of the loaded block through the layer. -/
theorem pay_rows (x0 : FVec Ideal S3456x1024 .f32) (x1 x2 : FVec Ideal S1024 .f32) (x3 : FVec Ideal S1024x512 .bf16)
    (x4 : FVec Ideal S512 .f32) :
    k0_pay1 (F := Ideal) x0 x1 x2 x3 x4 = rowsOut (R := 3456) x0 x1 x2 x3 x4 := by
  funext j
  obtain ⟨p, q, rfl⟩ : ∃ (p : Fin 3456) (q : Fin 512), j = ix2 p q := ⟨j 0, j 1, eq_ix2 j⟩
  rw [pay_eq, shapeCast_self, shapeCast_self, rowsOut_apply]
  show FloatOps.matmul dot_S3456x1024_S1024x512_S3456x512_1_0_0_1_n_n none
        (truncf .bf16 (normedBlk x0 x1 x2) bitsLt_bf16_f32) x3 (constant S3456x512 .f32 0x00000000#32) (ix2 p q)
      + broadcastTo S3456x512 (shapeCast S1x512 x4 shapeCasts_S512_S1x512) broadcasts_S1x512_S3456x512 (ix2 p q)
    = (∑ k, normed (rowOf x0 p) (fun k => x1 (ix1 k)) (fun k => x2 (ix1 k)) k * x3 (ix2 k q)) + x4 (ix1 q)
  refine congrArg₂ (· + ·)
    ((Cert.Lib.DotCols.matmul_cols_apply dot_S3456x1024_S1024x512_S3456x512_1_0_0_1_n_n rfl none
      (truncf .bf16 (normedBlk x0 x1 x2) bitsLt_bf16_f32) x3 p q).trans (Finset.sum_congr rfl fun k _ => ?_))
    ((broadcastTo_1b_ab_apply _ broadcasts_S1x512_S3456x512 p q).trans (shapeCast_a_1a_apply x4 shapeCasts_S512_S1x512 0 q))
  show normedBlk x0 x1 x2 (ix2 p k) * x3 (ix2 k q) = _
  rw [normedBlk_apply]

end Cert.LnLinear.Body

end
-- ==== Proof.KernelArray.lean ====
/-
  From the body's blocks to the kernel's result array.

  The grid has 38 points; point `t` is handed rows `3456·t … 3456·t + 3455` of the `[131328, 1024]` array of merged
  rows (all 1024 columns), the whole of the two normalisation vectors, of the rounded weight and of the bias, and
  writes back rows `3456·t …` of the `[131328, 512]` result (all 512 columns).  Since the stored block is `rowsOut` of
  the loaded blocks, and a row of the block is a row of the array, what point `t` writes back is block `t` of `rowsOut`
  of the whole arrays; the 38 blocks tile the result array, so after the region it IS `rowsOut` of the arrays the region
  found.  Those are: the merged array reshaped to rows (built by the host lines before the region), the weight
  rounded to bf16, and three arguments untouched.  The one host line after the region reshapes the result to
  `[8, 32, 513, 512]`.
-/
import proofs.«169697_j80401787781844_1_alg».proof.Proof.Gen.KernelIdeal.Frame
import proofs.«169697_j80401787781844_1_alg».proof.Proof.KernelRow
import Idealize.ShloMosaic.Lib.Pipeline.Value
import Idealize.ShloMosaic.Lib.StableHlo.Run
import Idealize.ShloMosaic.PureOps.Ideal.Laws

set_option maxRecDepth 16384

noncomputable section

open scoped BigOperators

namespace Cert.LnLinear.KernelValue

open Cert.KernelIdeal Cert.KernelIdeal.Gen Cert.LnLinear
open Idealize.ShloMosaic Idealize.ShloMosaic.TcCoe Idealize.SL.Sem Idealize.ShloMosaic.StableHlo
open Idealize.ShloMosaic.ValueIdx
open Idealize.ShloMosaic.Pipeline (Dat)

variable (m : (ℓ : Loc nD τ sig) → Buf (Elt Ideal) ℓ) (ρ : Dev nD → PrngReg)

/-! ## The arrays the region finds -/

/-- The merged array as the host lines before the region build it from the input: per (batch, series) the class
    token doubled along the features, in front of the 512 pairs of adjacent tokens. -/
def merged (x : FVec Ideal S8x32x1025x512 .f32) : FVec Ideal S8x32x513x1024 .f32 :=
  concatenate S8x32x513x1024 2
    [⟨S8x32x1x1024, broadcastInDim S8x32x1x1024 ![0, 1, 3] bcast_S8x32x1024_S8x32x1x1024_0_1_3
        (concatenate S8x32x1024 2
          [⟨S8x32x512, shapeCast S8x32x512 (extractStridedSlice S8x32x1x512 ![0, 0, 0, 0] x slices_S8x32x1025x512_S8x32x1x512_0_0_0_0)
              shapeCasts_S8x32x1x512_S8x32x512⟩,
            ⟨S8x32x512, shapeCast S8x32x512 (extractStridedSlice S8x32x1x512 ![0, 0, 0, 0] x slices_S8x32x1025x512_S8x32x1x512_0_0_0_0)
              shapeCasts_S8x32x1x512_S8x32x512⟩]
          concatenates_S8x32x512_S8x32x512_S8x32x1024_d2)⟩,
      ⟨S8x32x512x1024, shapeCast S8x32x512x1024
        (extractStridedSlice S8x32x1024x512 ![0, 0, 1, 0] x slices_S8x32x1025x512_S8x32x1024x512_0_0_1_0)
        shapeCasts_S8x32x1024x512_S8x32x512x1024⟩]
    concatenates_S8x32x1x1024_S8x32x512x1024_S8x32x513x1024_d2

/-- The region finds the merged array laid out as 131328 rows. -/
theorem found_rows (c : Dev nD) :
    (V m c main_v7 : S131328x1024.Idx → EReal)
      = shapeCast S131328x1024 (merged (m ((c : Thread nD τ).loc main_arg0))) shapeCasts_S8x32x513x1024_S131328x1024 := by
  show StableHlo.after hostOps0 (fun b => m (c, b)) (Proc.devRef .tc main_v7) = _
  after_results
  rfl

/-- The weight rounded to bf16, as the host line before the region does (on the ideal floats, the identity). -/
def rounded (x3 : FVec Ideal S1024x512 .f32) : FVec Ideal S1024x512 .bf16 := truncf .bf16 x3 bitsLt_bf16_f32

theorem rounded_apply (x3 : FVec Ideal S1024x512 .f32) (i : S1024x512.Idx) : rounded x3 i = x3 i := rfl

/-- The region finds the weight rounded to bf16. -/
theorem found_weight (c : Dev nD) :
    (V m c main_v8 : S1024x512.Idx → EReal) = rounded (m ((c : Thread nD τ).loc main_arg3)) := by
  show StableHlo.after hostOps0 (fun b => m (c, b)) (Proc.devRef .tc main_v8) = _
  after_results
  rfl

/-! ## What a point writes back -/

theorem hz2 : (![0, 0] : Fin 2 → Nat) = fun _ => 0 := funext fun a => by fin_cases a <;> rfl
theorem hz1 : (![0] : Fin 1 → Nat) = fun _ => 0 := funext fun a => by fin_cases a; rfl

/-- The result of the whole arrays the region finds: every row through the layer. -/
abbrev G (c : Dev nD) : S131328x512.Idx → EReal :=
  rowsOut (R := 131328) (V m c main_v7) (V m c main_arg1) (V m c main_arg2) (V m c main_v8) (V m c main_arg4)

/-- The printed index maps, decided over the 38 points: the row blocks of the merged rows move with the result's, every
    other block index is zero, and the result's row-block index stays below 38. -/
theorem idx_facts : ∀ t : Fin cfg0.N, win0_0.index t (0 : Fin 2) = win0_5.index t (0 : Fin 2)
    ∧ win0_0.index t (1 : Fin 2) = 0
    ∧ win0_1.index t (0 : Fin 1) = 0
    ∧ win0_2.index t (0 : Fin 1) = 0
    ∧ win0_3.index t (0 : Fin 2) = 0
    ∧ win0_3.index t (1 : Fin 2) = 0
    ∧ win0_4.index t (0 : Fin 1) = 0
    ∧ win0_5.index t (1 : Fin 2) = 0
    ∧ win0_5.index t (0 : Fin 2) ≤ 37 :=
  (by decide +kernel : ∀ t : Fin grid0.N, _)

/-- Every row block of the result is some point's. -/
theorem idx_onto : ∀ q0 : Fin 38, ∃ t : Fin cfg0.N, win0_5.index t = ![q0.val, 0] :=
  (by decide +kernel : ∀ q0 : Fin 38, ∃ t : Fin grid0.N, win0_5.index t = ![q0.val, 0])

/-- WHAT POINT `t` WRITES BACK is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  unfold out0_5
  rw [View.canon_unit_zero hz2]
  simp only [View.ld_unit_zero (S := S3456x1024) hz2, View.ld_unit_zero (S := S1024) hz1,
    View.ld_unit_zero (S := S1024x512) hz2, View.ld_unit_zero (S := S512) hz1]
  rw [Body.pay_rows]
  obtain ⟨e0, e1, e2, e3, e4, e5, e6, e7, e8⟩ := idx_facts t
  funext j
  obtain ⟨p, q, rfl⟩ : ∃ (p : Fin 3456) (q : Fin 512), j = ix2 p q := ⟨j 0, j 1, eq_ix2 j⟩
  have hp : p.val < 3456 := p.isLt
  have hrow : ((cfg0.win 5).blk t).view.emb (ix2 p q)
      = ix2 (⟨win0_5.index t (0 : Fin 2) * 3456 + p.val, by omega⟩ : Fin 131328) q := by
    funext a; apply Fin.ext
    match a with
    | ⟨0, _⟩ => show win0_5.index t (0 : Fin 2) * 3456 + 1 * p.val = win0_5.index t (0 : Fin 2) * 3456 + p.val; omega
    | ⟨1, _⟩ => show win0_5.index t (1 : Fin 2) * 512 + 1 * q.val = q.val; omega
  show rowsOut (R := 3456) (iblk m c 0 t) (iblk m c 1 t) (iblk m c 2 t) (iblk m c 3 t) (iblk m c 4 t) (ix2 p q)
    = rowsOut (R := 131328) (V m c main_v7) (V m c main_arg1) (V m c main_arg2) (V m c main_v8) (V m c main_arg4)
        (((cfg0.win 5).blk t).view.emb (ix2 p q))
  rw [hrow, rowsOut_apply, rowsOut_apply]
  have h0 : ∀ k : Fin 1024, iblk m c 0 t (ix2 p k)
      = V m c main_v7 (ix2 (⟨win0_5.index t (0 : Fin 2) * 3456 + p.val, by omega⟩ : Fin 131328) k) := fun k => by
    show V m c main_v7 (((cfg0.win 0).blk t).view.emb (ix2 p k)) = _
    refine congrArg (V m c main_v7) (funext fun a => Fin.ext ?_)
    match a with
    | ⟨0, _⟩ => show win0_0.index t (0 : Fin 2) * 3456 + 1 * p.val = win0_5.index t (0 : Fin 2) * 3456 + p.val; omega
    | ⟨1, _⟩ => show win0_0.index t (1 : Fin 2) * 1024 + 1 * k.val = k.val; omega
  have h1 : ∀ k : Fin 1024, iblk m c 1 t (ix1 k) = V m c main_arg1 (ix1 k) := fun k => by
    show V m c main_arg1 (((cfg0.win 1).blk t).view.emb (ix1 k)) = _
    refine congrArg (V m c main_arg1) (funext fun a => Fin.ext ?_)
    match a with
    | ⟨0, _⟩ => show win0_1.index t (0 : Fin 1) * 1024 + 1 * k.val = k.val; omega
  have h2 : ∀ k : Fin 1024, iblk m c 2 t (ix1 k) = V m c main_arg2 (ix1 k) := fun k => by
    show V m c main_arg2 (((cfg0.win 2).blk t).view.emb (ix1 k)) = _
    refine congrArg (V m c main_arg2) (funext fun a => Fin.ext ?_)
    match a with
    | ⟨0, _⟩ => show win0_2.index t (0 : Fin 1) * 1024 + 1 * k.val = k.val; omega
  have h3 : ∀ (k : Fin 1024) (o : Fin 512), iblk m c 3 t (ix2 k o) = V m c main_v8 (ix2 k o) := fun k o => by
    show V m c main_v8 (((cfg0.win 3).blk t).view.emb (ix2 k o)) = _
    refine congrArg (V m c main_v8) (funext fun a => Fin.ext ?_)
    match a with
    | ⟨0, _⟩ => show win0_3.index t (0 : Fin 2) * 1024 + 1 * k.val = k.val; omega
    | ⟨1, _⟩ => show win0_3.index t (1 : Fin 2) * 512 + 1 * o.val = o.val; omega
  have h4 : ∀ o : Fin 512, iblk m c 4 t (ix1 o) = V m c main_arg4 (ix1 o) := fun o => by
    show V m c main_arg4 (((cfg0.win 4).blk t).view.emb (ix1 o)) = _
    refine congrArg (V m c main_arg4) (funext fun a => Fin.ext ?_)
    match a with
    | ⟨0, _⟩ => show win0_4.index t (0 : Fin 1) * 512 + 1 * o.val = o.val; omega
  simp only [h0, h1, h2, h3, h4]

/-! ## The result array after the region -/

/-- An index of the result array is in point `t`'s block iff each coordinate is in the block's range on its axis. -/
theorem mem_blk (t : Fin cfg0.N) (i : S131328x512.Idx) :
    i ∈ ((cfg0.win 5).blk t).view.set ↔ ∀ a : Fin 2, win0_5.index t a * S3456x512.size a ≤ (i a).val
      ∧ (i a).val < win0_5.index t a * S3456x512.size a + S3456x512.size a := by
  show i ∈ ((View.whole main_v9).slice (win0_5.rect t)).set ↔ _
  rw [View.set_slice_whole, Rect.mem_set_unit]
  exact Iff.rfl

/-- The 38 row blocks tile the result array: row `r` is in the block of point `r / 3456`. -/
theorem cover (i : S131328x512.Idx) :
    ∃ t : Fin cfg0.N, (cfg0.win 5).flush t = true ∧ i ∈ ((cfg0.win 5).blk t).view.set := by
  have hi0 : (i 0).val < 131328 := (i 0).isLt
  have hi1 : (i 1).val < 512 := (i 1).isLt
  obtain ⟨t, ht⟩ := idx_onto ⟨(i 0).val / 3456, by omega⟩
  have q0 : win0_5.index t (0 : Fin 2) = (i 0).val / 3456 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 3456 ≤ (i 0).val ∧ (i 0).val < win0_5.index t (0 : Fin 2) * 3456 + 3456
    omega
  | ⟨1, _⟩ =>
    show win0_5.index t (1 : Fin 2) * 512 ≤ (i 1).val ∧ (i 1).val < win0_5.index t (1 : Fin 2) * 512 + 512
    omega

/-- THE RESULT ARRAY after the region is `G`. -/
theorem final (c : Dev nD) : (dats m 0 c).arrAt 5 cfg0.N = G m c :=
  (dats m 0 c).arrAt_eq_of_cover 5 (G m c) (fun t _ => flushed_eq m c t) cover

/-! ## The kernel's result -/

/-- The kernel's result as one function of its five arguments: the merged array as rows, every row through the layer
    (the weight rounded first), reshaped to `[8, 32, 513, 512]`. -/
def result (x0 : FVec Ideal S8x32x1025x512 .f32) (x1 x2 : FVec Ideal S1024 .f32) (x3 : FVec Ideal S1024x512 .f32)
    (x4 : FVec Ideal S512 .f32) : FVec Ideal S8x32x513x512 .f32 :=
  shapeCast S8x32x513x512
    (rowsOut (R := 131328) (shapeCast S131328x1024 (merged x0) shapeCasts_S8x32x513x1024_S131328x1024) x1 x2
      (rounded x3) x4)
    shapeCasts_S131328x512_S8x32x513x512

/-- `G` in terms of the arguments. -/
theorem G_eq (c : Dev nD) :
    G m c = rowsOut (R := 131328)
      (shapeCast S131328x1024 (merged (m ((c : Thread nD τ).loc main_arg0))) shapeCasts_S8x32x513x1024_S131328x1024)
      (m ((c : Thread nD τ).loc main_arg1)) (m ((c : Thread nD τ).loc main_arg2))
      (rounded (m ((c : Thread nD τ).loc main_arg3))) (m ((c : Thread nD τ).loc main_arg4)) := by
  unfold G
  rw [found_rows, found_weight, V_main_arg1, V_main_arg2, V_main_arg4]

/-- What the host line after the region leaves in the result buffer. -/
theorem tail_eq (c : Dev nD) :
    (Pipeline.afterTail₀ cfgs (dats m) 0 (V0 m) [hostOps1] c main_v10 : S8x32x513x512.Idx → EReal)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have hA : Pipeline.withArrays (cfgs 0).spec c (V0 m c) (fun w => (dats m 0 c).arrAt w (cfgs 0).N) (Proc.devRef .tc main_v9)
      = G m c := (Pipeline.withArrays_arr spec0 launch0.win.arr_inj c _ _ 5).trans (final m c)
  unfold Pipeline.afterTail₀
  show StableHlo.after hostOps1 _ (Proc.devRef .tc main_v10) = _
  after_results
  unfold result
  rw [← G_eq]
  exact congrArg (fun A => shapeCast S8x32x513x512 A shapeCasts_S131328x512_S8x32x513x512) hA

/-- THE KERNEL'S RUN: every weakly fair execution terminates with the result buffer at `result` of the arguments, and
    the arguments unchanged. -/
theorem run : θ_run defs (onTc (τ := τ) (main (F := Ideal))) ⟨m, fun _ => 0, ρ⟩ fun r => ∀ c : Dev nD,
      r.2.mem ((c.tc : Thread nD τ).loc main_v10)
        = result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.LnLinear.KernelValue

end
-- ==== Proof.RefRow.lean ====
/-
  The reference's result, read entry by entry.

  The reference normalises the merged array `[8, 32, 513, 1024]` along its last axis and applies the linear layer
  along the same axis, so entry `(a, b, c, q)` of its result depends on the one row `(a, b, c, ·)` of the merged
  array: it is the row function of that row at output `q`.  The merged array itself (the class token doubled, joined
  with the adjacent pairs) is left unopened: `val_main_v6 x`.  The lemmas follow the reference's stages in order
  — mean, deviations (the program forms them twice), variance, reciprocal deviation, the scaled and shifted row, the
  product with the weight and the bias — each read at an index given by its coordinates.
-/
import proofs.«169697_j80401787781844_1_alg».proof.Proof.Gen.ReferenceIdeal.Read
import proofs.«169697_j80401787781844_1_alg».proof.Proof.RowNorm

noncomputable section

open scoped BigOperators

namespace Cert.LnLinear.Ref

open Cert.ReferenceIdeal Cert.ReferenceIdeal.Read Cert.LnLinear
open Idealize.ShloMosaic Idealize.ShloMosaic.ValueIdx

variable (x0 : (⟨S8x32x1025x512, .f32⟩ : BufTy).Contents (Elt Ideal))
variable (x1 x2 : (⟨S1024, .f32⟩ : BufTy).Contents (Elt Ideal))
variable (x3 : (⟨S1024x512, .f32⟩ : BufTy).Contents (Elt Ideal))
variable (x4 : (⟨S512, .f32⟩ : BufTy).Contents (Elt Ideal))
variable (a : Fin 8) (b : Fin 32) (c : Fin 513)

/-- Row `(a, b, c, ·)` of the merged array. -/
abbrev rowAt : Fin 1024 → EReal := fun k => val_main_v6 (F := Ideal) x0 (ix4 a b c k)

/-! ## The stages' index maps at coordinates -/

theorem idx_sum (u : Fin 1) (k : Fin 1024) : idx_main_v7 (idx_main_v8 (ix4 a b c u)) k = ix4 a b c k :=
  funext fun d => by match d with | ⟨0, _⟩ => rfl | ⟨1, _⟩ => rfl | ⟨2, _⟩ => rfl | ⟨3, _⟩ => rfl
theorem idx_sumsq (u : Fin 1) (k : Fin 1024) : idx_main_v14 (idx_main_v15 (ix4 a b c u)) k = ix4 a b c k :=
  funext fun d => by match d with | ⟨0, _⟩ => rfl | ⟨1, _⟩ => rfl | ⟨2, _⟩ => rfl | ⟨3, _⟩ => rfl
theorem idx_col11 (k : Fin 1024) : idx_main_v11 (ix4 a b c k) = ix4 a b c (0 : Fin 1) :=
  funext fun d => by match d with | ⟨0, _⟩ => rfl | ⟨1, _⟩ => rfl | ⟨2, _⟩ => rfl | ⟨3, _⟩ => rfl
theorem idx_col18 (k : Fin 1024) : idx_main_v18 (ix4 a b c k) = ix4 a b c (0 : Fin 1) :=
  funext fun d => by match d with | ⟨0, _⟩ => rfl | ⟨1, _⟩ => rfl | ⟨2, _⟩ => rfl | ⟨3, _⟩ => rfl
theorem idx_col23 (k : Fin 1024) : idx_main_v23 (ix4 a b c k) = ix4 a b c (0 : Fin 1) :=
  funext fun d => by match d with | ⟨0, _⟩ => rfl | ⟨1, _⟩ => rfl | ⟨2, _⟩ => rfl | ⟨3, _⟩ => rfl
theorem idx_scale (k : Fin 1024) : idx_main_v25 (idx_main_v26 (ix4 a b c k)) = ix1 k :=
  funext fun d => by match d with | ⟨0, _⟩ => rfl
theorem idx_shift (k : Fin 1024) : idx_main_v28 (idx_main_v29 (ix4 a b c k)) = ix1 k :=
  funext fun d => by match d with | ⟨0, _⟩ => rfl
theorem idx_bias (q : Fin 512) : idx_main_v32 (idx_main_v33 (ix4 a b c q)) = ix1 q :=
  funext fun d => by match d with | ⟨0, _⟩ => rfl
theorem idx_lhs (q : Fin 512) (k : Fin 1024) : lidx_main_v31 (ix4 a b c q) k = ix4 a b c k :=
  funext fun d => by match d with | ⟨0, _⟩ => rfl | ⟨1, _⟩ => rfl | ⟨2, _⟩ => rfl | ⟨3, _⟩ => rfl
theorem idx_rhs (q : Fin 512) (k : Fin 1024) : ridx_main_v31 (ix4 a b c q) k = ix2 k q :=
  funext fun d => by match d with | ⟨0, _⟩ => rfl | ⟨1, _⟩ => rfl

/-! ## The stages at coordinates -/

/-- The kept column of means holds the row's mean. -/
theorem mean_apply (u : Fin 1) : val_main_v10 (F := Ideal) x0 (ix4 a b c u) = mean (rowAt x0 a b c) := by
  rw [val_main_v10_apply, val_main_v8_apply, val_main_v7_apply, val_main_v9_apply, val_main_cst_0_apply, val_main_cst_apply]
  show Ideal.div (zeroW + ∑ k, val_main_v6 (F := Ideal) x0 (idx_main_v7 (idx_main_v8 (ix4 a b c u)) k)) lenW
    = Ideal.div (zeroW + ∑ k, val_main_v6 (F := Ideal) x0 (ix4 a b c k)) lenW
  simp only [idx_sum]

/-- The deviations, as the variance takes them … -/
theorem dev_apply (k : Fin 1024) : val_main_v12 (F := Ideal) x0 (ix4 a b c k) = dev (rowAt x0 a b c) k := by
  rw [val_main_v12_apply, val_main_v11_apply, idx_col11, mean_apply]
  rfl

/-- … and as the normalised row takes them: the same. -/
theorem dev_apply' (k : Fin 1024) : val_main_v19 (F := Ideal) x0 (ix4 a b c k) = dev (rowAt x0 a b c) k := by
  rw [val_main_v19_apply, val_main_v18_apply, idx_col18, mean_apply]
  rfl

/-- The kept column of variances holds the row's variance. -/
theorem var_apply (u : Fin 1) : val_main_v17 (F := Ideal) x0 (ix4 a b c u) = var (rowAt x0 a b c) := by
  rw [val_main_v17_apply, val_main_v15_apply, val_main_v14_apply, val_main_v16_apply, val_main_cst_2_apply, val_main_cst_1_apply]
  show Ideal.div (zeroW + ∑ k, val_main_v13 (F := Ideal) x0 (idx_main_v14 (idx_main_v15 (ix4 a b c u)) k)) lenW
    = Ideal.div (zeroW + ∑ k, dev (rowAt x0 a b c) k * dev (rowAt x0 a b c) k) lenW
  simp only [idx_sumsq, val_main_v13_apply, dev_apply]
  rfl

/-- The column of reciprocal standard deviations. -/
theorem invStd_apply (u : Fin 1) : val_main_v22 (F := Ideal) x0 (ix4 a b c u) = invStd (rowAt x0 a b c) := by
  rw [val_main_v22_apply, val_main_v21_apply, var_apply, val_main_v20_apply, val_main_cst_3_apply]
  rfl

/-- The scaled and shifted row. -/
theorem normed_apply (k : Fin 1024) :
    val_main_v30 (F := Ideal) x0 x1 x2 (ix4 a b c k) = normed (rowAt x0 a b c) (fun k => x1 (ix1 k)) (fun k => x2 (ix1 k)) k := by
  rw [val_main_v30_apply, val_main_v27_apply, val_main_v24_apply, dev_apply', val_main_v23_apply, idx_col23, invStd_apply,
    val_main_v26_apply, val_main_v25_apply, idx_scale, val_main_v29_apply, val_main_v28_apply, idx_shift]
  rfl

/-- THE REFERENCE AT AN ENTRY: the row function of row `(a, b, c, ·)` of the merged array, at output `q`. -/
theorem result_apply (q : Fin 512) :
    val_main_v34 (F := Ideal) x0 x1 x2 x3 x4 (ix4 a b c q)
      = rowOut (rowAt x0 a b c) (fun k => x1 (ix1 k)) (fun k => x2 (ix1 k)) (fun k q => x3 (ix2 k q)) (fun q => x4 (ix1 q)) q := by
  rw [val_main_v34_apply, val_main_v31_apply, val_main_v33_apply, val_main_v32_apply, idx_bias]
  show (∑ k, val_main_v30 (F := Ideal) x0 x1 x2 (lidx_main_v31 (ix4 a b c q) k) * x3 (ridx_main_v31 (ix4 a b c q) k)) + x4 (ix1 q)
    = (∑ k, normed (rowAt x0 a b c) (fun k => x1 (ix1 k)) (fun k => x2 (ix1 k)) k * x3 (ix2 k q)) + x4 (ix1 q)
  simp only [idx_lhs, idx_rhs, normed_apply]

end Cert.LnLinear.Ref

end
-- ==== Proof.Bridge.lean ====
/-
  The kernel's result and the reference's result are one function of the arguments.

  The kernel lays the merged array `[8, 32, 513, 1024]` out as 131328 rows, sends every row through the layer, and
  reshapes the `[131328, 512]` result back to `[8, 32, 513, 512]`; the reference normalises and multiplies along the last
  axis of the four-axis array directly.  Both reshapes keep the row-major position, and row `(a·32 + b)·513 + c` of the
  row layout is row `(a, b, c, ·)` of the four-axis array: entry `(a, b, c, q)` of either result is the row function of that
  one row at output `q`.  The merged array is built by the same host operations in both programs; the weight the kernel
  multiplies by is the reference's rounded to bf16, which on the ideal floats is the weight itself.
-/
import proofs.«169697_j80401787781844_1_alg».proof.Proof.KernelArray
import proofs.«169697_j80401787781844_1_alg».proof.Proof.RefRow

noncomputable section

open scoped BigOperators

namespace Cert.LnLinear.Bridge

open Cert.LnLinear Idealize.ShloMosaic Idealize.ShloMosaic.ValueIdx

/-- Both programs build the merged array by the same operations. -/
theorem merged_eq (x : FVec Ideal Cert.KernelIdeal.S8x32x1025x512 .f32) :
    KernelValue.merged x = Cert.ReferenceIdeal.Read.val_main_v6 (F := Ideal) x := rfl

/-- The row of the row layout that holds `(a, b, c, ·)`. -/
abbrev rowIx (a : Fin 8) (b : Fin 32) (c : Fin 513) : Fin 131328 :=
  ⟨(a.val * 32 + b.val) * 513 + c.val, by have := a.isLt; have := b.isLt; have := c.isLt; omega⟩

/-- Row `rowIx a b c` of the merged array laid out as rows is its row `(a, b, c, ·)`. -/
theorem rows_apply (M : (⟨4, ![8, 32, 513, 1024]⟩ : Shape).Idx → EReal)
    (h : (⟨4, ![8, 32, 513, 1024]⟩ : Shape).ShapeCasts ⟨2, ![131328, 1024]⟩) (a : Fin 8) (b : Fin 32) (c : Fin 513) (k : Fin 1024) :
    shapeCast ⟨2, ![131328, 1024]⟩ M h (ix2 (rowIx a b c) k) = M (ix4 a b c k) :=
  shapeCast_apply M h _ _ (by
    rw [Shape.rowMajor_val_four, Shape.rowMajor_val_two]
    show ((a.val * 32 + b.val) * 513 + c.val) * 1024 + k.val = ((a.val * 32 + b.val) * 513 + c.val) * 1024 + k.val
    rfl)

/-- Entry `(a, b, c, q)` of the result reshaped from rows is entry `(rowIx a b c, q)` of the rows. -/
theorem unrows_apply (Y : (⟨2, ![131328, 512]⟩ : Shape).Idx → EReal)
    (h : (⟨2, ![131328, 512]⟩ : Shape).ShapeCasts ⟨4, ![8, 32, 513, 512]⟩) (a : Fin 8) (b : Fin 32) (c : Fin 513) (q : Fin 512) :
    shapeCast ⟨4, ![8, 32, 513, 512]⟩ Y h (ix4 a b c q) = Y (ix2 (rowIx a b c) q) :=
  shapeCast_apply Y h _ _ (by
    rw [Shape.rowMajor_val_four, Shape.rowMajor_val_two]
    show ((a.val * 32 + b.val) * 513 + c.val) * 512 + q.val = ((a.val * 32 + b.val) * 513 + c.val) * 512 + q.val
    rfl)

/-- THE TWO RESULTS ARE ONE FUNCTION of the five arguments, entry by entry. -/
theorem result_eq (x0 : FVec Ideal Cert.KernelIdeal.S8x32x1025x512 .f32) (x1 x2 : FVec Ideal Cert.KernelIdeal.S1024 .f32)
    (x3 : FVec Ideal Cert.KernelIdeal.S1024x512 .f32) (x4 : FVec Ideal Cert.KernelIdeal.S512 .f32) :
    KernelValue.result x0 x1 x2 x3 x4 = Cert.ReferenceIdeal.Read.val_main_v34 (F := Ideal) x0 x1 x2 x3 x4 := by
  funext j
  obtain ⟨a, b, c, q, rfl⟩ : ∃ (a : Fin 8) (b : Fin 32) (c : Fin 513) (q : Fin 512), j = ix4 a b c q :=
    ⟨j 0, j 1, j 2, j 3, eq_ix4 j⟩
  rw [Ref.result_apply]
  unfold KernelValue.result
  rw [unrows_apply, rowsOut_apply]
  exact rowOut_congr (fun k => (rows_apply _ _ a b c k).trans (congrFun (merged_eq x0) _)) _ _ _ _ _

end Cert.LnLinear.Bridge

end
-- ==== Proof.lean ====
/-
  A Pallas kernel that applies layer normalisation over 1024 features and then a linear layer into 512 outputs to the
  131328 rows of a "segment merge" (per batch and series: the class token doubled, in front of the 512 pairs of adjacent
  tokens), against the same computation written with jnp on the four-axis array.

  Read on the extended reals both programs compute, for each row `v` of the merged array,
  `Σ_k ((v_k − μ) · rsqrt (σ² + ε) · w_k + b_k) · W[k, q] + c_q` with `μ` the mean of the row and `σ²` the mean of its
  squared deviations (Proof/RowNorm.lean).  The kernel does so block by block over a grid of 38 row blocks and rounds
  the normalised rows and the weight to bf16 before the product, which changes nothing on the ideal floats; its sums
  are lane sums and a matrix product into a zero accumulator, the reference's are host reductions and a `dot_general`:
  all plain finite sums here.  No law is used that could fail at an infinity — the two sides are the same expression
  entry by entry —, so the inputs' finiteness is not used.

  Proof/KernelRow.lean reads the kernel body's arithmetic at an entry; Proof/KernelArray.lean assembles the blocks into
  the result array and carries it through the host lines around the region; Proof/RefRow.lean reads the reference's
  result at an entry; Proof/Bridge.lean identifies the two.  The three frames are the generated ones (the reference's
  its generated run with the result dropped); the idealization rewrote nothing, so `preserves` is trivial.
-/
import proofs.«169697_j80401787781844_1_alg».proof.Defs
import proofs.«169697_j80401787781844_1_alg».proof.Proof.Gen.Kernel
import proofs.«169697_j80401787781844_1_alg».proof.Proof.Gen.Kernel.Frame
import proofs.«169697_j80401787781844_1_alg».proof.Proof.Gen.KernelIdeal
import proofs.«169697_j80401787781844_1_alg».proof.Proof.Gen.KernelIdeal.Frame
import proofs.«169697_j80401787781844_1_alg».proof.Proof.Gen.ReferenceIdeal
import proofs.«169697_j80401787781844_1_alg».proof.Proof.Gen.Pre_finite_inputs
import proofs.«169697_j80401787781844_1_alg».proof.Proof.Gen.ReferenceIdeal.Run
import proofs.«169697_j80401787781844_1_alg».proof.Proof.Gen.ReferenceIdeal.Read
import proofs.«169697_j80401787781844_1_alg».proof.Proof.KernelArray
import proofs.«169697_j80401787781844_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the ideal floats, from memories agreeing on the five arguments, the kernel's result buffer ends at the row
    function of every row of the merged array, reshaped — and so does the reference's. -/
theorem algebraic : Cert.algebraic_KernelIdeal_ReferenceIdeal := by
  intro m ρ m' ρ' _ hagree
  refine ⟨_, Cert.LnLinear.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2]
  exact (Cert.LnLinear.Bridge.result_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
